-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 112
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S_, .f32⟩
  | .hbm, ⟨90, _⟩ => ⟨S128x128, .f32⟩
  | .hbm, ⟨91, _⟩ => ⟨S100000x128, .f32⟩
  | .hbm, ⟨92, _⟩ => ⟨S100000x64, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x64, .f32⟩
  | .hbm, ⟨102, _⟩ => ⟨S1700000x1, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  pads_S128x64_S128x128_000_0640 : S128x64.Pads (![0, 0] : Fin 2 → Nat) ![0, 64] ![0, 0] S128x128
  h_S_ : 0 < S_.numel
  shapeCasts_S128x128_S128x128 : S128x128.ShapeCasts S128x128
  slices_S100000x128_S100000x64_0_0 : S100000x128.Slices ![0, 0] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x64, .f32⟩
  | _ => ⟨S100000x128, .f32⟩

abbrev hbmTy0_1 (i : Nat) : BufTy := match i % 128 with
  | 0 => ⟨S_, .f32⟩
  | 1 => ⟨S1700000, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x64, .f32⟩
  | 42 => ⟨S1700000x1, .f32⟩
  | 43 => ⟨S1700000x64, .f32⟩
  | 44 => ⟨S1700000x64, .f32⟩
  | 45 => ⟨S_, .f32⟩
  | 46 => ⟨S100000x64, .f32⟩
  | 47 => ⟨S1700000x1, .i32⟩
  | 48 => ⟨S100000x64, .f32⟩
  | 49 => ⟨S1x64, .f32⟩
  | 50 => ⟨S100000x64, .f32⟩
  | 51 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_call4_v0 : Ref sig .tc := ⟨.hbm, 139, rfl⟩
abbrev main_call4_v1 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_v99 : Ref sig .tc := ⟨.hbm, 144, rfl⟩
abbrev main_c_25 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_26 : Ref sig .tc := ⟨.hbm, 151, rfl⟩
abbrev main_v105 : Ref sig .tc := ⟨.hbm, 152, rfl⟩
abbrev main_v106 : Ref sig .tc := ⟨.hbm, 153, rfl⟩
abbrev main_c_27 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_28 : Ref sig .tc := ⟨.hbm, 161, rfl⟩
abbrev main_v113 : Ref sig .tc := ⟨.hbm, 162, rfl⟩
abbrev main_v114 : Ref sig .tc := ⟨.hbm, 163, rfl⟩
abbrev main_c_29 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_30 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named. The program is ten segments: host stretches around three
  matrix-product regions. Every weakly fair execution terminates without a fault, and the final memory holds, at
  every unscoped buffer, the contents the fold of the segments leaves there (`Gen.W10`): the result buffer at the
  last boundary's contents, the argument arrays as launched. The contents at the boundary are opened, stretch by
  stretch and region by region, in the sibling modules.
-/
import proofs.«157540_j60894046322930_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the ten segments from the launch: the result buffer ends at the last boundary's contents and the
    eight argument arrays end as launched. -/
theorem run_result : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Result

end
-- ==== Proof.Spec.lean ====
/-
  The graph convolution's host side as functions of arrays. Both programs build, from the 2 x 1600000 edge list, the source
  and destination vectors of the 1700000 edges (the given edges followed by one self loop per node), a node's degree as the
  number of edges arriving at it, its inverse square root where the degree is positive (zero elsewhere), and an edge's weight
  as the product of that quantity at its two ends. A layer then gathers the rows of a node matrix h at the edges' sources
  (a negative source number wrapped by the node count), scales each gathered row by its edge's weight, adds the rows up at
  the edges' destinations and adds the bias row to every node. These are the chains both programs share, named once.
-/
import proofs.«157540_j60894046322930_2_alg».proof.KernelIdeal

noncomputable section

namespace Cert.Gcn

open Cert.KernelIdeal Cert.KernelIdeal.Facts₀ Idealize.ShloMosaic

variable {F : FTy → Type} [FloatOps F] [Cert.KernelIdeal.Facts]

/-- The edges' source nodes: row 0 of the edge list, then every node once. -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edges' destination nodes: row 1 of the edge list, then every node once. -/
def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A vector of node numbers as a gather's index column, a negative number wrapped by the node count. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A node's degree: one added at the destination of every edge. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- Whether a node's degree is positive. -/
def degPos (d : (⟨S1700000, .i32⟩ : BufTy).Contents (Elt F)) : (⟨S100000, .i1⟩ : BufTy).Contents (Elt F) :=
  cmpf .ogt (degOf d) (broadcastInDim S100000 ![] bcast_S_S100000 (constant S_ .f32 0x00000000#32))

/-- The inverse square root of the degree where it is positive, zero elsewhere. -/
def dinvOf (d : (⟨S1700000, .i32⟩ : BufTy).Contents (Elt F)) : (⟨S100000, .f32⟩ : BufTy).Contents (Elt F) :=
  select (degPos d) (Host.rsqrt (degOf d)) (broadcastInDim S100000 ![] bcast_S_S100000 (id (constant S_ .f32 0x00000000#32)))

/-- An edge's weight: the node quantity at its source times the node quantity at its destination. -/
def normOf (dinv : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 dinv (wrapIdx s))
    (Host.gather gather_S100000_S1700000x1_S1700000_n_0_n_n_0_1_1 dinv (wrapIdx d))

/-- One layer's aggregation of a 128-column node matrix: gather at the sources, scale by the edge weights, add up at the
    destinations, add the bias row. -/
def agg128 (h : (⟨S100000x128, .f32⟩ : BufTy).Contents (Elt F)) (s d : (⟨S1700000, .i32⟩ : BufTy).Contents (Elt F))
    (n : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 h (wrapIdx s))
        (broadcastInDim S1700000x128 ![0, 1] bcast_S1700000x1_S1700000x128_0_1 (broadcastInDim S1700000x1 ![0] bcast_S1700000_S1700000x1_0 n))))
    (broadcastInDim S100000x128 ![0, 1] bcast_S1x128_S100000x128_0_1 (broadcastInDim S1x128 ![1] bcast_S128_S1x128_1 b))

/-- The same aggregation of a 64-column node matrix. -/
def agg64 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 h (wrapIdx s))
        (broadcastInDim S1700000x64 ![0, 1] bcast_S1700000x1_S1700000x64_0_1 (broadcastInDim S1700000x1 ![0] bcast_S1700000_S1700000x1_0 n))))
    (broadcastInDim S100000x64 ![0, 1] bcast_S1x64_S100000x64_0_1 (broadcastInDim S1x64 ![1] bcast_S64_S1x64_1 b))

/-- The larger of each entry and zero. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

end Cert.Gcn

end
-- ==== Proof.HostK.lean ====
/-
  The idealized kernel's host stretches, each read as a function of the buffers it starts from. The stretch before the
  first matrix product builds the edges' source and destination vectors, the degrees and the edge weights; the stretch
  after each matrix product aggregates that product's rows over the edges; before the third product the last weight
  matrix is widened with 64 zero columns, and after it the product's first 64 columns are kept. A buffer a stretch does
  not write keeps its contents through it.
-/
import proofs.«157540_j60894046322930_2_alg».proof.Proof.Gen.KernelIdeal.Launch
import proofs.«157540_j60894046322930_2_alg».proof.Proof.Spec
import Idealize.ShloMosaic.Lib.StableHlo.Run

set_option maxRecDepth 16384

noncomputable section

namespace Cert.KernelIdeal.Host

open Cert.KernelIdeal Cert.KernelIdeal.Gen Cert.Gcn
open Idealize.ShloMosaic Idealize.ShloMosaic.TcCoe Idealize.ShloMosaic.StableHlo

variable {F : FTy → Type} [FloatOps F]

/-! ## What each stretch writes, and what it leaves alone -/

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps0_keep (V : Valuation τ sig (Elt F)) (r : Ref sig .tc) (h : r ∉ hostOps0_W) :
    after hostOps0 V (Proc.devRef .tc r) = V (Proc.devRef .tc r) :=
  StableHlo.after_of_writes_sub hostOps0 V hostOps0_writes h

/-- The references `hostOps0_1`'s operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps0_1_keep (V : Valuation τ sig (Elt F)) (r : Ref sig .tc) (h : r ∉ hostOps0_1_W) :
    after hostOps0_1 V (Proc.devRef .tc r) = V (Proc.devRef .tc r) :=
  StableHlo.after_of_writes_sub hostOps0_1 V hostOps0_1_writes h

/-- The references `hostOps0_2`'s operations write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps0_2_keep (V : Valuation τ sig (Elt F)) (r : Ref sig .tc) (h : r ∉ hostOps0_2_W) :
    after hostOps0_2 V (Proc.devRef .tc r) = V (Proc.devRef .tc r) :=
  StableHlo.after_of_writes_sub hostOps0_2 V hostOps0_2_writes h

/-- The references `hostOps1`'s operations write. -/
abbrev hostOps1_W : List (Ref sig .tc) := [main_c_6, main_v31, main_v32, main_c_7, main_v33, main_v34, main_v35, main_v36, main_v37, main_v38, main_v39, main_v40, main_cst_8, main_v41, main_v42, main_v43, main_v44, main_v45, main_v46]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps1_keep (V : Valuation τ sig (Elt F)) (r : Ref sig .tc) (h : r ∉ hostOps1_W) :
    after hostOps1 V (Proc.devRef .tc r) = V (Proc.devRef .tc r) :=
  StableHlo.after_of_writes_sub hostOps1 V hostOps1_writes h

/-- The references `hostOps2`'s operations write. -/
abbrev hostOps2_W : List (Ref sig .tc) := [main_c_9, main_v48, main_v49, main_c_10, main_v50, main_v51, main_v52, main_v53, main_v54, main_v55, main_v56, main_v57, main_cst_11, main_v58, main_v59, main_v60, main_v61, main_v62, main_v63, main_c_12]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps2_keep (V : Valuation τ sig (Elt F)) (r : Ref sig .tc) (h : r ∉ hostOps2_W) :
    after hostOps2 V (Proc.devRef .tc r) = V (Proc.devRef .tc r) :=
  StableHlo.after_of_writes_sub hostOps2 V hostOps2_writes h

/-- The references `hostOps2_1`'s operations write. -/
abbrev hostOps2_1_W : List (Ref sig .tc) := [main_call1_v0, main_v64]
theorem hostOps2_1_writes : (hostOps2_1 : List (HloOp τ sig (Elt F))).Forall fun op => op.writes ⊆ (hostOps2_1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps2_1_keep (V : Valuation τ sig (Elt F)) (r : Ref sig .tc) (h : r ∉ hostOps2_1_W) :
    after hostOps2_1 V (Proc.devRef .tc r) = V (Proc.devRef .tc r) :=
  StableHlo.after_of_writes_sub hostOps2_1 V hostOps2_1_writes h

/-- The references `hostOps3`'s operations write. -/
abbrev hostOps3_W : List (Ref sig .tc) := [main_v66, main_c_13, main_v67, main_v68, main_c_14, main_v69, main_v70, main_v71, main_v72, main_v73, main_v74, main_v75, main_v76, main_cst_15, main_v77, main_v78, main_v79, main_v80, main_v81, main_v82]
theorem hostOps3_writes : (hostOps3 : List (HloOp τ sig (Elt F))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem hostOps3_keep (V : Valuation τ sig (Elt F)) (r : Ref sig .tc) (h : r ∉ hostOps3_W) :
    after hostOps3 V (Proc.devRef .tc r) = V (Proc.devRef .tc r) :=
  StableHlo.after_of_writes_sub hostOps3 V hostOps3_writes h

/-! ## The stretch before the first matrix product -/

variable (V : Valuation τ sig (Elt F))

theorem ops0_src : after hostOps0 V (Proc.devRef .tc main_v3) = srcOf (V (Proc.devRef .tc main_arg1)) := by
  after_results; rfl
theorem ops0_dst : after hostOps0 V (Proc.devRef .tc main_v6) = dstOf (V (Proc.devRef .tc main_arg1)) := by
  after_results; rfl
theorem ops0_pos : after hostOps0 V (Proc.devRef .tc main_v12) = degPos (dstOf (V (Proc.devRef .tc main_arg1))) := by
  after_results; rfl
theorem ops0_rsqrt : after hostOps0 V (Proc.devRef .tc main_v13) = Host.rsqrt (degOf (dstOf (V (Proc.devRef .tc main_arg1)))) := by
  after_results; rfl
theorem ops0_zero : after hostOps0 V (Proc.devRef .tc main_cst_2) = constant S_ .f32 0x00000000#32 := by
  after_results

/-- The select of the inverse square root where the degree is positive. -/
theorem ops01_dinv : after hostOps0_1 V (Proc.devRef .tc main_v14)
    = select (V (Proc.devRef .tc main_v12)) (V (Proc.devRef .tc main_v13)) (broadcastInDim S100000 ![] bcast_S_S100000 (id (V (Proc.devRef .tc main_cst_2)))) := by
  after_results; rfl

set_option maxHeartbeats 4000000 in
/-- The edge weights from the node quantity and the two index vectors. -/
theorem ops02_norm : after hostOps0_2 V (Proc.devRef .tc main_v29)
    = normOf (V (Proc.devRef .tc main_v14)) (V (Proc.devRef .tc main_v3)) (V (Proc.devRef .tc main_v6)) := by
  after_results_simp; rfl

/-! ## The aggregations after the matrix products -/

set_option maxHeartbeats 4000000 in
theorem ops1_agg : after hostOps1 V (Proc.devRef .tc main_v46)
    = agg128 (V (Proc.devRef .tc main_v30)) (V (Proc.devRef .tc main_v3)) (V (Proc.devRef .tc main_v6)) (V (Proc.devRef .tc main_v29)) (V (Proc.devRef .tc main_arg3)) := by
  after_results_simp; rfl

set_option maxHeartbeats 4000000 in
theorem ops2_agg : after hostOps2 V (Proc.devRef .tc main_v63)
    = agg128 (V (Proc.devRef .tc main_v47)) (V (Proc.devRef .tc main_v3)) (V (Proc.devRef .tc main_v6)) (V (Proc.devRef .tc main_v29)) (V (Proc.devRef .tc main_arg5)) := by
  after_results_simp; rfl

set_option maxHeartbeats 4000000 in
theorem ops2_zero : after hostOps2 V (Proc.devRef .tc main_c_12) = constantI S_ 32 0#32 := by
  after_results_simp

/-- The last weight matrix widened to 128 columns with the converted zero. -/
theorem ops21_pad : after hostOps2_1 V (Proc.devRef .tc main_v64)
    = pad S128x128 ![0, 0] ![0, 64] ![0, 0] (V (Proc.devRef .tc main_arg6)) (sitofp .f32 (V (Proc.devRef .tc main_c_12))) pads_S128x64_S128x128_000_0640 h_S_ := by
  after_results; rfl

set_option maxHeartbeats 4000000 in
theorem ops3_agg : after hostOps3 V (Proc.devRef .tc main_v82)
    = agg64 (extractStridedSlice S100000x64 ![0, 0] (V (Proc.devRef .tc main_v65)) slices_S100000x128_S100000x64_0_0)
        (V (Proc.devRef .tc main_v3)) (V (Proc.devRef .tc main_v6)) (V (Proc.devRef .tc main_v29)) (V (Proc.devRef .tc main_arg7)) := by
  after_results_simp; rfl

end Cert.KernelIdeal.Host

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Region0.lean ====
/-
  Region 0 of the idealized kernel (matrix product of the node features with a weight matrix, 5000 rows at a
  grid point, the whole 128 x 128 weight at every point). What point t writes back is rows 5000 t … 5000 t + 4999 of the
  product of the two whole arrays: entry (p, q) of a block is the sum over j of
  x (5000 t + p, j) · w (j, q), and the twenty blocks tile the 100000 rows. So the output array ends holding the product.
-/
import proofs.«157540_j60894046322930_2_alg».proof.Proof.Gen.KernelIdeal.Frame
import proofs.«157540_j60894046322930_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The product of the whole arrays, entry by entry: row i₀ of the left array against column i₁ of the right one. -/
def prod (X : FVec Ideal S100000x128 .f32) (Wt : FVec Ideal S128x128 .f32) : FVec Ideal S100000x128 .f32 :=
  fun i => ∑ j : Fin 128, X (ix2 (i 0) j) * Wt (ix2 j (i 1))

/-- What the body leaves in the output block, at (p, q): the sum over the contracted position. -/
theorem out_apply (x0 : Vec Ideal S5000x128 .f32) (x1 : Vec Ideal S128x128 .f32) (p : Fin 5000) (q : Fin 128) :
    out0_2 (F := Ideal) x0 x1 (ix2 p q) = ∑ j : Fin 128, x0 (ix2 p j) * x1 (ix2 j q) := by
  unfold out0_2
  rw [View.canon_unit_zero hz]
  simp only [View.ld_unit_zero (S := S5000x128) hz, View.ld_unit_zero (S := S128x128) hz]
  unfold k0_pay1
  skip
  exact matmul_zero_ix2 dot_S5000x128_S128x128_S5000x128_1_0_0_1_n_n rfl rfl rfl rfl rfl rfl _ _ _ p q

variable (V : (c : Dev nD) → (b : Ref sig .tc) → Buf (Elt Ideal) ((c : Thread nD τ).loc b))

/-- The printed index maps over the grid: the row blocks move with the point, the weight's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000 t … of its array. -/
theorem lhs_block (c : Dev nD) (t : Fin cfg0.N) (p : Fin 5000) (j : Fin 128) (k : S100000x128.Idx)
    (hk0 : (k 0).val = t.val * 5000 + p.val) (hk1 : (k 1).val = j.val) :
    (iblk0 V c 0 t : Vec Ideal S5000x128 .f32) (ix2 p j) = (V c main_arg0 : S100000x128.Idx → Elt Ideal .f32) k := by
  obtain ⟨e00, e01, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = (k 0).val; rw [e00, hk0]; omega
  | ⟨1, _⟩ => show win0_0.index t (1 : Fin 2) * 128 + 1 * j.val = (k 1).val; rw [e01, hk1]; omega

/-- The weight window's block at every point is the whole weight. -/
theorem rhs_block (c : Dev nD) (t : Fin cfg0.N) (j : Fin 128) (q : Fin 128) :
    (iblk0 V c 1 t : Vec Ideal S128x128 .f32) (ix2 j q) = (V c main_arg2 : S128x128.Idx → Elt Ideal .f32) (ix2 j q) := by
  obtain ⟨-, -, e10, e11, -, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * j.val = j.val; rw [e10]; omega
  | ⟨1, _⟩ => show win0_1.index t (1 : Fin 2) * 128 + 1 * q.val = q.val; rw [e11]; omega

/-- What point t writes back is block t of the product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  obtain ⟨-, -, -, -, e20, e21⟩ := idx_facts t
  funext y
  obtain ⟨p, q, rfl⟩ : ∃ (p : Fin 5000) (q : Fin 128), y = ix2 p q := ⟨y 0, y 1, eq_ix2 y⟩
  refine (out_apply _ _ p q).trans ?_
  rw [View.read_apply]
  have hp : t.val * 5000 + p.val < 100000 := by
    have := t.isLt; have hN : cfg0.N = 20 := N_0; have := p.isLt; omega
  have he : ((cfg0.win 2).blk t).view.emb (ix2 p q) = (ix2 (⟨t.val * 5000 + p.val, hp⟩ : Fin 100000) q : S100000x128.Idx) := by
    funext a
    apply Fin.ext
    match a with
    | ⟨0, _⟩ => show win0_2.index t (0 : Fin 2) * 5000 + 1 * p.val = t.val * 5000 + p.val; rw [e20]; omega
    | ⟨1, _⟩ => show win0_2.index t (1 : Fin 2) * 128 + 1 * q.val = q.val; rw [e21]; omega
  rw [he]
  unfold prod
  refine Finset.sum_congr rfl fun j _ => ?_
  rw [lhs_block V c t p j (ix2 (⟨t.val * 5000 + p.val, hp⟩ : Fin 100000) j) rfl rfl, rhs_block V c t j q]

/-- An index of the output array is in point t's block iff its coordinates are in the block's ranges. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty row blocks cover the output array: row r is in block r / 5000. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_2 _, ?_⟩
  rw [mem_blk]
  obtain ⟨-, -, -, -, e20, e21⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- The output array after the region: the product of the arrays the region finds. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Region0

end
-- ==== Proof.Region1.lean ====
/-
  Region 1 of the idealized kernel (matrix product of the rectified layer output with a weight matrix, 5000 rows at a
  grid point, the whole 128 x 128 weight at every point). What point t writes back is rows 5000 t … 5000 t + 4999 of the
  product of the two whole arrays, the left one rectified entry by entry (max with zero) before it is multiplied: entry (p, q) of a block is the sum over j of
  max(x (5000 t + p, j), 0) · w (j, q), and the twenty blocks tile the 100000 rows. So the output array ends holding the product.
-/
import proofs.«157540_j60894046322930_2_alg».proof.Proof.Gen.KernelIdeal.Frame
import proofs.«157540_j60894046322930_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The product of the whole arrays, entry by entry: row i₀ of the left array, rectified, against column i₁ of the right one. -/
def prod (X : FVec Ideal S100000x128 .f32) (Wt : FVec Ideal S128x128 .f32) : FVec Ideal S100000x128 .f32 :=
  fun i => ∑ j : Fin 128, FloatOps.maximumf (F := Ideal) (X (ix2 (i 0) j)) (Scalar.ofBits (F := Ideal) .f32 0x00000000#32) * Wt (ix2 j (i 1))

/-- What the body leaves in the output block, at (p, q): the sum over the contracted position. -/
theorem out_apply (x0 : Vec Ideal S5000x128 .f32) (x1 : Vec Ideal S128x128 .f32) (p : Fin 5000) (q : Fin 128) :
    out1_2 (F := Ideal) x0 x1 (ix2 p q) = ∑ j : Fin 128, FloatOps.maximumf (F := Ideal) (x0 (ix2 p j)) (Scalar.ofBits (F := Ideal) .f32 0x00000000#32) * x1 (ix2 j q) := by
  unfold out1_2
  rw [View.canon_unit_zero hz]
  simp only [View.ld_unit_zero (S := S5000x128) hz, View.ld_unit_zero (S := S128x128) hz]
  unfold k1_pay1
  simp only [shapeCast_self]
  exact matmul_zero_ix2 dot_S5000x128_S128x128_S5000x128_1_0_0_1_n_n rfl rfl rfl rfl rfl rfl _ _ _ p q

variable (V : (c : Dev nD) → (b : Ref sig .tc) → Buf (Elt Ideal) ((c : Thread nD τ).loc b))

/-- The printed index maps over the grid: the row blocks move with the point, the weight's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 5000 t … of its array. -/
theorem lhs_block (c : Dev nD) (t : Fin cfg1.N) (p : Fin 5000) (j : Fin 128) (k : S100000x128.Idx)
    (hk0 : (k 0).val = t.val * 5000 + p.val) (hk1 : (k 1).val = j.val) :
    (iblk1 V c 0 t : Vec Ideal S5000x128 .f32) (ix2 p j) = (V c main_v46 : S100000x128.Idx → Elt Ideal .f32) k := by
  obtain ⟨e00, e01, -, -, -, -⟩ := idx_facts t
  unfold iblk1
  rw [View.read_apply]
  show V c main_v46 _ = V c main_v46 _
  congr 1
  funext a
  apply Fin.ext
  match a with
  | ⟨0, _⟩ => show win1_0.index t (0 : Fin 2) * 5000 + 1 * p.val = (k 0).val; rw [e00, hk0]; omega
  | ⟨1, _⟩ => show win1_0.index t (1 : Fin 2) * 128 + 1 * j.val = (k 1).val; rw [e01, hk1]; omega

/-- The weight window's block at every point is the whole weight. -/
theorem rhs_block (c : Dev nD) (t : Fin cfg1.N) (j : Fin 128) (q : Fin 128) :
    (iblk1 V c 1 t : Vec Ideal S128x128 .f32) (ix2 j q) = (V c main_arg4 : S128x128.Idx → Elt Ideal .f32) (ix2 j q) := by
  obtain ⟨-, -, e10, e11, -, -⟩ := idx_facts t
  unfold iblk1
  rw [View.read_apply]
  show V c main_arg4 _ = V c main_arg4 _
  congr 1
  funext a
  apply Fin.ext
  match a with
  | ⟨0, _⟩ => show win1_1.index t (0 : Fin 2) * 128 + 1 * j.val = j.val; rw [e10]; omega
  | ⟨1, _⟩ => show win1_1.index t (1 : Fin 2) * 128 + 1 * q.val = q.val; rw [e11]; omega

/-- What point t writes back is block t of the product of the arrays the region finds. -/
theorem flushed_eq (c : Dev nD) (t : Fin cfg1.N) :
    (dat1 V c).flushed 2 t = ((cfg1.win 2).blk t).view.read (Elt Ideal) (prod (V c main_v46) (V c main_arg4)) := by
  show (cfg1.win 2).cut (grid1.coords t) ((dat1 V c).after 2 t) = _
  rw [after1_2]
  obtain ⟨-, -, -, -, e20, e21⟩ := idx_facts t
  funext y
  obtain ⟨p, q, rfl⟩ : ∃ (p : Fin 5000) (q : Fin 128), y = ix2 p q := ⟨y 0, y 1, eq_ix2 y⟩
  refine (out_apply _ _ p q).trans ?_
  rw [View.read_apply]
  have hp : t.val * 5000 + p.val < 100000 := by
    have := t.isLt; have hN : cfg1.N = 20 := N_1; have := p.isLt; omega
  have he : ((cfg1.win 2).blk t).view.emb (ix2 p q) = (ix2 (⟨t.val * 5000 + p.val, hp⟩ : Fin 100000) q : S100000x128.Idx) := by
    funext a
    apply Fin.ext
    match a with
    | ⟨0, _⟩ => show win1_2.index t (0 : Fin 2) * 5000 + 1 * p.val = t.val * 5000 + p.val; rw [e20]; omega
    | ⟨1, _⟩ => show win1_2.index t (1 : Fin 2) * 128 + 1 * q.val = q.val; rw [e21]; omega
  rw [he]
  unfold prod
  refine Finset.sum_congr rfl fun j _ => ?_
  rw [lhs_block V c t p j (ix2 (⟨t.val * 5000 + p.val, hp⟩ : Fin 100000) j) rfl rfl, rhs_block V c t j q]

/-- An index of the output array is in point t's block iff its coordinates are in the block's ranges. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The twenty row blocks cover the output array: row r is in block r / 5000. -/
theorem cover (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := N_1
  refine ⟨⟨(i 0).val / 5000, by rw [hN]; omega⟩, flush1_2 _, ?_⟩
  rw [mem_blk]
  obtain ⟨-, -, -, -, e20, e21⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e20]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e21]; omega

/-- The output array after the region: the product of the arrays the region finds. -/
theorem final (c : Dev nD) : (dat1 V c).arrAt 2 cfg1.N = prod (V c main_v46) (V c main_arg4) :=
  (dat1 V c).arrAt_eq_of_cover 2 (prod (V c main_v46) (V c main_arg4)) (fun t _ => flushed_eq V c t) cover

end Cert.KernelIdeal.Region1

end
-- ==== Proof.Region2.lean ====
/-
  Region 2 of the idealized kernel (matrix product of the rectified layer output with a weight matrix, 5000 rows at a
  grid point, the whole 128 x 128 weight at every point). What point t writes back is rows 5000 t … 5000 t + 4999 of the
  product of the two whole arrays, the left one rectified entry by entry (max with zero) before it is multiplied: entry (p, q) of a block is the sum over j of
  max(x (5000 t + p, j), 0) · w (j, q), and the twenty blocks tile the 100000 rows. So the output array ends holding the product.
-/
import proofs.«157540_j60894046322930_2_alg».proof.Proof.Gen.KernelIdeal.Frame
import proofs.«157540_j60894046322930_2_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The product of the whole arrays, entry by entry: row i₀ of the left array, rectified, against column i₁ of the right one. -/
def prod (X : FVec Ideal S100000x128 .f32) (Wt : FVec Ideal S128x128 .f32) : FVec Ideal S100000x128 .f32 :=
  fun i => ∑ j : Fin 128, FloatOps.maximumf (F := Ideal) (X (ix2 (i 0) j)) (Scalar.ofBits (F := Ideal) .f32 0x00000000#32) * Wt (ix2 j (i 1))

/-- What the body leaves in the output block, at (p, q): the sum over the contracted position. -/
theorem out_apply (x0 : Vec Ideal S5000x128 .f32) (x1 : Vec Ideal S128x128 .f32) (p : Fin 5000) (q : Fin 128) :
    out2_2 (F := Ideal) x0 x1 (ix2 p q) = ∑ j : Fin 128, FloatOps.maximumf (F := Ideal) (x0 (ix2 p j)) (Scalar.ofBits (F := Ideal) .f32 0x00000000#32) * x1 (ix2 j q) := by
  unfold out2_2
  rw [View.canon_unit_zero hz]
  simp only [View.ld_unit_zero (S := S5000x128) hz, View.ld_unit_zero (S := S128x128) hz]
  unfold k2_pay1
  simp only [shapeCast_self]
  exact matmul_zero_ix2 dot_S5000x128_S128x128_S5000x128_1_0_0_1_n_n rfl rfl rfl rfl rfl rfl _ _ _ p q

variable (V : (c : Dev nD) → (b : Ref sig .tc) → Buf (Elt Ideal) ((c : Thread nD τ).loc b))

/-- The printed index maps over the grid: the row blocks move with the point, the weight's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 5000 t … of its array. -/
theorem lhs_block (c : Dev nD) (t : Fin cfg2.N) (p : Fin 5000) (j : Fin 128) (k : S100000x128.Idx)
    (hk0 : (k 0).val = t.val * 5000 + p.val) (hk1 : (k 1).val = j.val) :
    (iblk2 V c 0 t : Vec Ideal S5000x128 .f32) (ix2 p j) = (V c main_v63 : S100000x128.Idx → Elt Ideal .f32) k := by
  obtain ⟨e00, e01, -, -, -, -⟩ := idx_facts t
  unfold iblk2
  rw [View.read_apply]
  show V c main_v63 _ = V c main_v63 _
  congr 1
  funext a
  apply Fin.ext
  match a with
  | ⟨0, _⟩ => show win2_0.index t (0 : Fin 2) * 5000 + 1 * p.val = (k 0).val; rw [e00, hk0]; omega
  | ⟨1, _⟩ => show win2_0.index t (1 : Fin 2) * 128 + 1 * j.val = (k 1).val; rw [e01, hk1]; omega

/-- The weight window's block at every point is the whole weight. -/
theorem rhs_block (c : Dev nD) (t : Fin cfg2.N) (j : Fin 128) (q : Fin 128) :
    (iblk2 V c 1 t : Vec Ideal S128x128 .f32) (ix2 j q) = (V c main_v64 : S128x128.Idx → Elt Ideal .f32) (ix2 j q) := by
  obtain ⟨-, -, e10, e11, -, -⟩ := idx_facts t
  unfold iblk2
  rw [View.read_apply]
  show V c main_v64 _ = V c main_v64 _
  congr 1
  funext a
  apply Fin.ext
  match a with
  | ⟨0, _⟩ => show win2_1.index t (0 : Fin 2) * 128 + 1 * j.val = j.val; rw [e10]; omega
  | ⟨1, _⟩ => show win2_1.index t (1 : Fin 2) * 128 + 1 * q.val = q.val; rw [e11]; omega

/-- What point t writes back is block t of the product of the arrays the region finds. -/
theorem flushed_eq (c : Dev nD) (t : Fin cfg2.N) :
    (dat2 V c).flushed 2 t = ((cfg2.win 2).blk t).view.read (Elt Ideal) (prod (V c main_v63) (V c main_v64)) := by
  show (cfg2.win 2).cut (grid2.coords t) ((dat2 V c).after 2 t) = _
  rw [after2_2]
  obtain ⟨-, -, -, -, e20, e21⟩ := idx_facts t
  funext y
  obtain ⟨p, q, rfl⟩ : ∃ (p : Fin 5000) (q : Fin 128), y = ix2 p q := ⟨y 0, y 1, eq_ix2 y⟩
  refine (out_apply _ _ p q).trans ?_
  rw [View.read_apply]
  have hp : t.val * 5000 + p.val < 100000 := by
    have := t.isLt; have hN : cfg2.N = 20 := N_2; have := p.isLt; omega
  have he : ((cfg2.win 2).blk t).view.emb (ix2 p q) = (ix2 (⟨t.val * 5000 + p.val, hp⟩ : Fin 100000) q : S100000x128.Idx) := by
    funext a
    apply Fin.ext
    match a with
    | ⟨0, _⟩ => show win2_2.index t (0 : Fin 2) * 5000 + 1 * p.val = t.val * 5000 + p.val; rw [e20]; omega
    | ⟨1, _⟩ => show win2_2.index t (1 : Fin 2) * 128 + 1 * q.val = q.val; rw [e21]; omega
  rw [he]
  unfold prod
  refine Finset.sum_congr rfl fun j _ => ?_
  rw [lhs_block V c t p j (ix2 (⟨t.val * 5000 + p.val, hp⟩ : Fin 100000) j) rfl rfl, rhs_block V c t j q]

/-- An index of the output array is in point t's block iff its coordinates are in the block's ranges. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v65).slice (win2_2.rect t)).set ↔ _
  rw [View.set_slice_whole, Rect.mem_set_unit]
  exact Iff.rfl

/-- The twenty row blocks cover the output array: row r is in block r / 5000. -/
theorem cover (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 20 := N_2
  refine ⟨⟨(i 0).val / 5000, by rw [hN]; omega⟩, flush2_2 _, ?_⟩
  rw [mem_blk]
  obtain ⟨-, -, -, -, e20, e21⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e20]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e21]; omega

/-- The output array after the region: the product of the arrays the region finds. -/
theorem final (c : Dev nD) : (dat2 V c).arrAt 2 cfg2.N = prod (V c main_v63) (V c main_v64) :=
  (dat2 V c).arrAt_eq_of_cover 2 (prod (V c main_v63) (V c main_v64)) (fun t _ => flushed_eq V c t) cover

end Cert.KernelIdeal.Region2

end
-- ==== Proof.KernelValue.lean ====
/-
  The idealized kernel's result as one function of the argument arrays. The contents at the ten segment boundaries are
  walked from the launch: the first stretch leaves the edges' source and destination vectors and the edge weights, which
  no later segment writes; each region leaves the product of the arrays it finds; each later stretch aggregates the
  region's product over the edges. The result buffer ends at the third aggregation, of the first 64 columns of the
  third product, whose right factor is the last weight matrix widened with zero columns.
-/
import proofs.«157540_j60894046322930_2_alg».proof.Proof.KernelRun
import proofs.«157540_j60894046322930_2_alg».proof.Proof.HostK
import proofs.«157540_j60894046322930_2_alg».proof.Proof.Region0
import proofs.«157540_j60894046322930_2_alg».proof.Proof.Region1
import proofs.«157540_j60894046322930_2_alg».proof.Proof.Region2

set_option maxRecDepth 16384

noncomputable section

namespace Cert.KernelIdeal.Value

open Cert.KernelIdeal Cert.KernelIdeal.Gen Cert.KernelIdeal.Host Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## A buffer no segment up to a boundary writes holds there what it held before -/

theorem at3 (r : Ref sig .tc) (h0 : r ∉ hostOps0_W) (h1 : r ∉ hostOps0_1_W) (h2 : r ∉ hostOps0_2_W) :
    W3 m ρ c (Proc.devRef .tc r) = W0 m ρ c (Proc.devRef .tc r) :=
  (hostOps0_2_keep _ r h2).trans ((hostOps0_1_keep _ r h1).trans (hostOps0_keep _ r h0))
theorem at4 (r : Ref sig .tc) (h : ∀ w, Pipeline.arrRef spec0 w ≠ r) :
    W4 m ρ c (Proc.devRef .tc r) = W3 m ρ c (Proc.devRef .tc r) := W4_of_ne m ρ c r h
theorem at5 (r : Ref sig .tc) (h : ∀ w, Pipeline.arrRef spec0 w ≠ r) (h1 : r ∉ hostOps1_W) :
    W5 m ρ c (Proc.devRef .tc r) = W3 m ρ c (Proc.devRef .tc r) :=
  (hostOps1_keep _ r h1).trans (at4 m ρ c r h)
theorem at6 (r : Ref sig .tc) (h : ∀ w, Pipeline.arrRef spec0 w ≠ r) (h1 : r ∉ hostOps1_W) (h2 : ∀ w, Pipeline.arrRef spec1 w ≠ r) :
    W6 m ρ c (Proc.devRef .tc r) = W3 m ρ c (Proc.devRef .tc r) :=
  (W6_of_ne m ρ c r h2).trans (at5 m ρ c r h h1)
theorem at7 (r : Ref sig .tc) (h : ∀ w, Pipeline.arrRef spec0 w ≠ r) (h1 : r ∉ hostOps1_W) (h2 : ∀ w, Pipeline.arrRef spec1 w ≠ r)
    (h3 : r ∉ hostOps2_W) : W7 m ρ c (Proc.devRef .tc r) = W3 m ρ c (Proc.devRef .tc r) :=
  (hostOps2_keep _ r h3).trans (at6 m ρ c r h h1 h2)
theorem at8 (r : Ref sig .tc) (h : ∀ w, Pipeline.arrRef spec0 w ≠ r) (h1 : r ∉ hostOps1_W) (h2 : ∀ w, Pipeline.arrRef spec1 w ≠ r)
    (h3 : r ∉ hostOps2_W) (h4 : r ∉ hostOps2_1_W) : W8 m ρ c (Proc.devRef .tc r) = W3 m ρ c (Proc.devRef .tc r) :=
  (hostOps2_1_keep _ r h4).trans (at7 m ρ c r h h1 h2 h3)
theorem at9 (r : Ref sig .tc) (h : ∀ w, Pipeline.arrRef spec0 w ≠ r) (h1 : r ∉ hostOps1_W) (h2 : ∀ w, Pipeline.arrRef spec1 w ≠ r)
    (h3 : r ∉ hostOps2_W) (h4 : r ∉ hostOps2_1_W) (h5 : ∀ w, Pipeline.arrRef spec2 w ≠ r) :
    W9 m ρ c (Proc.devRef .tc r) = W3 m ρ c (Proc.devRef .tc r) :=
  (W9_of_ne m ρ c r h5).trans (at8 m ρ c r h h1 h2 h3 h4)

/-! ## The edges' vectors and weights, as the first region finds them -/

/-- The edge list as launched. -/
abbrev edges : (⟨S2x1600000, .i32⟩ : BufTy).Contents (Elt Ideal) := m ((c : Thread nD τ).loc main_arg1)

theorem src1 : W1 m ρ c (Proc.devRef .tc main_v3) = srcOf (edges m c) := ops0_src (W0 m ρ c)
theorem dst1 : W1 m ρ c (Proc.devRef .tc main_v6) = dstOf (edges m c) := ops0_dst (W0 m ρ c)
theorem src2 : W2 m ρ c (Proc.devRef .tc main_v3) = srcOf (edges m c) :=
  (hostOps0_1_keep _ main_v3 (by decide)).trans (src1 m ρ c)
theorem dst2 : W2 m ρ c (Proc.devRef .tc main_v6) = dstOf (edges m c) :=
  (hostOps0_1_keep _ main_v6 (by decide)).trans (dst1 m ρ c)
theorem src3 : W3 m ρ c (Proc.devRef .tc main_v3) = srcOf (edges m c) :=
  (hostOps0_2_keep _ main_v3 (by decide)).trans (src2 m ρ c)
theorem dst3 : W3 m ρ c (Proc.devRef .tc main_v6) = dstOf (edges m c) :=
  (hostOps0_2_keep _ main_v6 (by decide)).trans (dst2 m ρ c)
theorem pos1 : W1 m ρ c (Proc.devRef .tc main_v12) = degPos (dstOf (edges m c)) := ops0_pos (W0 m ρ c)
theorem rsqrt1 : W1 m ρ c (Proc.devRef .tc main_v13) = Host.rsqrt (degOf (dstOf (edges m c))) := ops0_rsqrt (W0 m ρ c)
theorem zero1 : W1 m ρ c (Proc.devRef .tc main_cst_2) = constant (F := Ideal) S_ .f32 0x00000000#32 := ops0_zero (W0 m ρ c)

/-- The node quantity after the select: the inverse square root of a positive degree, zero elsewhere. -/
theorem dinv2 : W2 m ρ c (Proc.devRef .tc main_v14) = dinvOf (dstOf (edges m c)) := by
  refine (ops01_dinv (W1 m ρ c)).trans ?_
  rw [pos1 m ρ c, rsqrt1 m ρ c, zero1 m ρ c]
  rfl

/-- The edge weights. -/
abbrev weights : (⟨S1700000, .f32⟩ : BufTy).Contents (Elt Ideal) :=
  normOf (dinvOf (dstOf (edges m c))) (srcOf (edges m c)) (dstOf (edges m c))

theorem norm3 : W3 m ρ c (Proc.devRef .tc main_v29) = weights m c := by
  refine (ops02_norm (W2 m ρ c)).trans ?_
  rw [dinv2 m ρ c, src2 m ρ c, dst2 m ρ c]

/-! ## The three layers -/

/-- The first product: the node features by the first weight matrix. -/
theorem prod0 : W4 m ρ c (Proc.devRef .tc main_v30)
    = Region0.prod (m ((c : Thread nD τ).loc main_arg0)) (m ((c : Thread nD τ).loc main_arg2)) := by
  refine (W4_arr m ρ c 2).trans ((Region0.final (V3 m ρ) c).trans ?_)
  show Region0.prod (W3 m ρ c (Proc.devRef .tc main_arg0)) (W3 m ρ c (Proc.devRef .tc main_arg2)) = _
  rw [at3 m ρ c main_arg0 (by decide) (by decide) (by decide), at3 m ρ c main_arg2 (by decide) (by decide) (by decide)]

/-- The first layer's output. -/
abbrev layer1 : (⟨S100000x128, .f32⟩ : BufTy).Contents (Elt Ideal) :=
  agg128 (Region0.prod (m ((c : Thread nD τ).loc main_arg0)) (m ((c : Thread nD τ).loc main_arg2)))
    (srcOf (edges m c)) (dstOf (edges m c)) (weights m c) (m ((c : Thread nD τ).loc main_arg3))

theorem out1 : W5 m ρ c (Proc.devRef .tc main_v46) = layer1 m c := by
  refine (ops1_agg (W4 m ρ c)).trans ?_
  rw [prod0 m ρ c, at4 m ρ c main_v3 (by decide), at4 m ρ c main_v6 (by decide), at4 m ρ c main_v29 (by decide),
    at4 m ρ c main_arg3 (by decide), src3 m ρ c, dst3 m ρ c, norm3 m ρ c, at3 m ρ c main_arg3 (by decide) (by decide) (by decide)]

/-- The second product: the rectified first layer by the second weight matrix. -/
theorem prod1 : W6 m ρ c (Proc.devRef .tc main_v47) = Region1.prod (layer1 m c) (m ((c : Thread nD τ).loc main_arg4)) := by
  refine (W6_arr m ρ c 2).trans ((Region1.final (V5 m ρ) c).trans ?_)
  show Region1.prod (W5 m ρ c (Proc.devRef .tc main_v46)) (W5 m ρ c (Proc.devRef .tc main_arg4)) = _
  rw [out1 m ρ c, at5 m ρ c main_arg4 (by decide) (by decide), at3 m ρ c main_arg4 (by decide) (by decide) (by decide)]

/-- The second layer's output. -/
abbrev layer2 : (⟨S100000x128, .f32⟩ : BufTy).Contents (Elt Ideal) :=
  agg128 (Region1.prod (layer1 m c) (m ((c : Thread nD τ).loc main_arg4)))
    (srcOf (edges m c)) (dstOf (edges m c)) (weights m c) (m ((c : Thread nD τ).loc main_arg5))

theorem out2 : W7 m ρ c (Proc.devRef .tc main_v63) = layer2 m c := by
  refine (ops2_agg (W6 m ρ c)).trans ?_
  rw [prod1 m ρ c, at6 m ρ c main_v3 (by decide) (by decide) (by decide), at6 m ρ c main_v6 (by decide) (by decide) (by decide),
    at6 m ρ c main_v29 (by decide) (by decide) (by decide), at6 m ρ c main_arg5 (by decide) (by decide) (by decide),
    src3 m ρ c, dst3 m ρ c, norm3 m ρ c, at3 m ρ c main_arg5 (by decide) (by decide) (by decide)]

/-- The last weight matrix widened to 128 columns with zeros. -/
abbrev wide3 : (⟨S128x128, .f32⟩ : BufTy).Contents (Elt Ideal) :=
  pad S128x128 ![0, 0] ![0, 64] ![0, 0] (m ((c : Thread nD τ).loc main_arg6)) (sitofp (F := Ideal) .f32 (constantI S_ 32 0#32))
    Facts₀.pads_S128x64_S128x128_000_0640 Facts₀.h_S_

theorem wide8 : W8 m ρ c (Proc.devRef .tc main_v64) = wide3 m c := by
  refine (ops21_pad (W7 m ρ c)).trans ?_
  have hz : W7 m ρ c (Proc.devRef .tc main_c_12) = constantI S_ 32 0#32 := ops2_zero (W6 m ρ c)
  rw [hz, at7 m ρ c main_arg6 (by decide) (by decide) (by decide) (by decide), at3 m ρ c main_arg6 (by decide) (by decide) (by decide)]

/-- The third product: the rectified second layer by the widened weight matrix. -/
theorem prod2 : W9 m ρ c (Proc.devRef .tc main_v65) = Region2.prod (layer2 m c) (wide3 m c) := by
  refine (W9_arr m ρ c 2).trans ((Region2.final (V8 m ρ) c).trans ?_)
  show Region2.prod (W8 m ρ c (Proc.devRef .tc main_v63)) (W8 m ρ c (Proc.devRef .tc main_v64)) = _
  have hk : W8 m ρ c (Proc.devRef .tc main_v63) = W7 m ρ c (Proc.devRef .tc main_v63) := hostOps2_1_keep _ main_v63 (by decide)
  rw [wide8 m ρ c, hk, out2 m ρ c]

/-- The kernel's result: the third aggregation, of the first 64 columns of the third product. -/
abbrev result : (⟨S100000x64, .f32⟩ : BufTy).Contents (Elt Ideal) :=
  agg64 (extractStridedSlice S100000x64 ![0, 0] (Region2.prod (layer2 m c) (wide3 m c)) Facts₀.slices_S100000x128_S100000x64_0_0)
    (srcOf (edges m c)) (dstOf (edges m c)) (weights m c) (m ((c : Thread nD τ).loc main_arg7))

theorem out3 : W10 m ρ c (Proc.devRef .tc main_v82) = result m c := by
  refine (ops3_agg (W9 m ρ c)).trans ?_
  rw [prod2 m ρ c, at9 m ρ c main_v3 (by decide) (by decide) (by decide) (by decide) (by decide) (by decide),
    at9 m ρ c main_v6 (by decide) (by decide) (by decide) (by decide) (by decide) (by decide),
    at9 m ρ c main_v29 (by decide) (by decide) (by decide) (by decide) (by decide) (by decide),
    at9 m ρ c main_arg7 (by decide) (by decide) (by decide) (by decide) (by decide) (by decide),
    src3 m ρ c, dst3 m ρ c, norm3 m ρ c, at3 m ρ c main_arg7 (by decide) (by decide) (by decide)]

end Cert.KernelIdeal.Value

end
-- ==== Proof.HostR.lean ====
/-
  The reference's 172 host operations cut into four stretches — the edges' index vectors, then one stretch per layer —
  and each stretch read as a function of the buffers it starts from: a layer is the matrix product of its input with its
  weight, aggregated over the edges with the edge weights recomputed from the degrees, and (but for the last layer)
  rectified. A buffer a stretch does not write keeps its contents through it.
-/
import proofs.«157540_j60894046322930_2_alg».proof.Proof.RefRun
import proofs.«157540_j60894046322930_2_alg».proof.Proof.Spec
import proofs.«157540_j60894046322930_2_alg».proof.Proof.Gen.KernelIdeal

set_option maxRecDepth 16384

noncomputable section

namespace Cert.ReferenceIdeal.Host

open Cert.ReferenceIdeal Cert.ReferenceIdeal.Gen Cert.Gcn
open Idealize.ShloMosaic Idealize.ShloMosaic.TcCoe Idealize.SL.Sem Idealize.ShloMosaic.StableHlo

variable {F : FTy → Type} [FloatOps F]

/-- The contents after two stretches run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The four stretches -/

/-- The edges' source and destination vectors (7 operations). -/
abbrev c0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The first layer (56 operations): product with the first weight, aggregation, rectification. -/
abbrev L1 : List (HloOp τ sig (Elt F)) :=
  [ binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The second layer (56 operations). -/
abbrev L2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x128 ![0, 1] bcast_S1700000x1_S1700000x128_0_1 : (⟨S1700000x1, .f32⟩ : BufTy).Contents (Elt F) → (⟨S1700000x128, .f32⟩ : BufTy).Contents (Elt F)),
    binary main_v78 main_v80 main_v81 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v82 (broadcastInDim S100000x128 ![] bcast_S_S100000x128 : (⟨S_, .f32⟩ : BufTy).Contents (Elt F) → (⟨S100000x128, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v87) (TRef.of (T := ⟨S100000x128, .f32⟩) main_call3_v0) (TRef.of (T := ⟨S100000x128, .f32⟩) main_v88) maximumf ]

/-- The third layer (53 operations): no rectification after it. -/
abbrev L3 : List (HloOp τ sig (Elt F)) :=
  [ binary main_v88 main_arg6 main_v89 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_20 (constant S_ .f32 0x3F800000#32),
    unary main_cst_20 main_v90 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v91 (broadcastInDim S100000 ![] bcast_S_S100000 : (⟨S_, .f32⟩ : BufTy).Contents (Elt F) → (⟨S100000, .f32⟩ : BufTy).Contents (Elt F)),
    unary main_v6 main_v92 (broadcastInDim S1700000x1 ![0] bcast_S1700000_S1700000x1_0 : (⟨S1700000, .i32⟩ : BufTy).Contents (Elt F) → (⟨S1700000x1, .i32⟩ : BufTy).Contents (Elt F)),
    ternary main_v91 main_v92 main_v90 main_v93 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v94 (broadcastInDim S100000 ![] bcast_S_S100000 : (⟨S_, .f32⟩ : BufTy).Contents (Elt F) → (⟨S100000, .f32⟩ : BufTy).Contents (Elt F)),
    binary main_v93 main_v94 main_v95 (cmpf .ogt : (⟨S100000, .f32⟩ : BufTy).Contents (Elt F) → (⟨S100000, .f32⟩ : BufTy).Contents (Elt F) → (⟨S100000, .i1⟩ : BufTy).Contents (Elt F)),
    unary main_v93 main_v96 (Host.rsqrt : (⟨S100000, .f32⟩ : BufTy).Contents (Elt F) → (⟨S100000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v95) (TRef.of (T := ⟨S100000, .f32⟩) main_v96) (TRef.of (T := ⟨S100000, .f32⟩) main_call4_v1) (TRef.of (T := ⟨S100000, .f32⟩) main_v97) select,
    nullary main_c_24 (constantI S_ 32 0#32),
    unary main_c_24 main_v98 (broadcastInDim S1700000 ![] bcast_S_S1700000 : (⟨S_, .i32⟩ : BufTy).Contents (Elt F) → (⟨S1700000, .i32⟩ : BufTy).Contents (Elt F)),
    binary main_v3 main_v98 main_v99 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v100 (broadcastInDim S1700000 ![] bcast_S_S1700000 : (⟨S_, .i32⟩ : BufTy).Contents (Elt F) → (⟨S1700000, .i32⟩ : BufTy).Contents (Elt F)),
    binary main_v3 main_v100 main_v101 (addi : (⟨S1700000, .i32⟩ : BufTy).Contents (Elt F) → (⟨S1700000, .i32⟩ : BufTy).Contents (Elt F) → (⟨S1700000, .i32⟩ : BufTy).Contents (Elt F)),
    ternary main_v99 main_v101 main_v3 main_v102 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v102 main_v103 (broadcastInDim S1700000x1 ![0] bcast_S1700000_S1700000x1_0 : (⟨S1700000, .i32⟩ : BufTy).Contents (Elt F) → (⟨S1700000x1, .i32⟩ : BufTy).Contents (Elt F)),
    binary main_v97 main_v103 main_v104 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v105 (broadcastInDim S1700000 ![] bcast_S_S1700000 : (⟨S_, .i32⟩ : BufTy).Contents (Elt F) → (⟨S1700000, .i32⟩ : BufTy).Contents (Elt F)),
    binary main_v6 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v107 (broadcastInDim S1700000 ![] bcast_S_S1700000 : (⟨S_, .i32⟩ : BufTy).Contents (Elt F) → (⟨S1700000, .i32⟩ : BufTy).Contents (Elt F)),
    binary main_v6 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v6 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v97 main_v110 main_v111 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v104 main_v111 main_v112 (mulf : (⟨S1700000, .f32⟩ : BufTy).Contents (Elt F) → (⟨S1700000, .f32⟩ : BufTy).Contents (Elt F) → (⟨S1700000, .f32⟩ : BufTy).Contents (Elt F)),
    nullary main_c_28 (constantI S_ 32 0#32),
    unary main_c_28 main_v113 (broadcastInDim S1700000 ![] bcast_S_S1700000 : (⟨S_, .i32⟩ : BufTy).Contents (Elt F) → (⟨S1700000, .i32⟩ : BufTy).Contents (Elt F)),
    binary main_v3 main_v113 main_v114 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v115 (broadcastInDim S1700000 ![] bcast_S_S1700000 : (⟨S_, .i32⟩ : BufTy).Contents (Elt F) → (⟨S1700000, .i32⟩ : BufTy).Contents (Elt F)),
    binary main_v3 main_v115 main_v116 (addi : (⟨S1700000, .i32⟩ : BufTy).Contents (Elt F) → (⟨S1700000, .i32⟩ : BufTy).Contents (Elt F) → (⟨S1700000, .i32⟩ : BufTy).Contents (Elt F)),
    ternary main_v114 main_v116 main_v3 main_v117 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v117 main_v118 (broadcastInDim S1700000x1 ![0] bcast_S1700000_S1700000x1_0 : (⟨S1700000, .i32⟩ : BufTy).Contents (Elt F) → (⟨S1700000x1, .i32⟩ : BufTy).Contents (Elt F)),
    binary main_v89 main_v118 main_v119 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v112 main_v120 (broadcastInDim S1700000x1 ![0] bcast_S1700000_S1700000x1_0 : (⟨S1700000, .f32⟩ : BufTy).Contents (Elt F) → (⟨S1700000x1, .f32⟩ : BufTy).Contents (Elt F)),
    unary main_v120 main_v121 (broadcastInDim S1700000x64 ![0, 1] bcast_S1700000x1_S1700000x64_0_1 : (⟨S1700000x1, .f32⟩ : BufTy).Contents (Elt F) → (⟨S1700000x64, .f32⟩ : BufTy).Contents (Elt F)),
    binary main_v119 main_v121 main_v122 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v123 (broadcastInDim S100000x64 ![] bcast_S_S100000x64 : (⟨S_, .f32⟩ : BufTy).Contents (Elt F) → (⟨S100000x64, .f32⟩ : BufTy).Contents (Elt F)),
    unary main_v6 main_v124 (broadcastInDim S1700000x1 ![0] bcast_S1700000_S1700000x1_0 : (⟨S1700000, .i32⟩ : BufTy).Contents (Elt F) → (⟨S1700000x1, .i32⟩ : BufTy).Contents (Elt F)),
    ternary main_v123 main_v124 main_v122 main_v125 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)) ]

set_option maxRecDepth 65536 in
/-- The program's operations are the four stretches in order. -/
theorem ops_split : (Cert.ReferenceIdeal.RunP.ops : List (HloOp τ sig (Elt F))) = c0 ++ (L1 ++ (L2 ++ L3)) := rfl

/-! ## What each stretch writes, and what it leaves alone -/

/-- The references `c0`'s operations write. -/
abbrev c0_W : List (Ref sig .tc) := [main_v0, main_v1, main_v2, main_v3, main_v4, main_v5, main_v6]
theorem c0_writes : (c0 : List (HloOp τ sig (Elt F))).Forall fun op => op.writes ⊆ (c0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem c0_keep (V : Valuation τ sig (Elt F)) (r : Ref sig .tc) (h : r ∉ c0_W) :
    after c0 V (Proc.devRef .tc r) = V (Proc.devRef .tc r) :=
  StableHlo.after_of_writes_sub c0 V c0_writes h

/-- The references `L1`'s operations write. -/
abbrev L1_W : List (Ref sig .tc) := [main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47]
theorem L1_writes : (L1 : List (HloOp τ sig (Elt F))).Forall fun op => op.writes ⊆ (L1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem L1_keep (V : Valuation τ sig (Elt F)) (r : Ref sig .tc) (h : r ∉ L1_W) :
    after L1 V (Proc.devRef .tc r) = V (Proc.devRef .tc r) :=
  StableHlo.after_of_writes_sub L1 V L1_writes h

/-- The references `L2`'s operations write. -/
abbrev L2_W : List (Ref sig .tc) := [main_v48, main_cst_9, main_v49, main_cst_10, main_v50, main_v51, main_v52, main_cst_11, main_v53, main_v54, main_v55, main_cst_12, main_call2_v0, main_call2_v1, main_v56, main_c_13, main_v57, main_v58, main_c_14, main_v59, main_v60, main_v61, main_v62, main_v63, main_c_15, main_v64, main_v65, main_c_16, main_v66, main_v67, main_v68, main_v69, main_v70, main_v71, main_c_17, main_v72, main_v73, main_c_18, main_v74, main_v75, main_v76, main_v77, main_v78, main_v79, main_v80, main_v81, main_cst_19, main_v82, main_v83, main_v84, main_v85, main_v86, main_v87, main_call3_cst, main_call3_v0, main_v88]
theorem L2_writes : (L2 : List (HloOp τ sig (Elt F))).Forall fun op => op.writes ⊆ (L2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem L2_keep (V : Valuation τ sig (Elt F)) (r : Ref sig .tc) (h : r ∉ L2_W) :
    after L2 V (Proc.devRef .tc r) = V (Proc.devRef .tc r) :=
  StableHlo.after_of_writes_sub L2 V L2_writes h

/-- The references `L3`'s operations write. -/
abbrev L3_W : List (Ref sig .tc) := [main_v89, main_cst_20, main_v90, main_cst_21, main_v91, main_v92, main_v93, main_cst_22, main_v94, main_v95, main_v96, main_cst_23, main_call4_v0, main_call4_v1, main_v97, main_c_24, main_v98, main_v99, main_c_25, main_v100, main_v101, main_v102, main_v103, main_v104, main_c_26, main_v105, main_v106, main_c_27, main_v107, main_v108, main_v109, main_v110, main_v111, main_v112, main_c_28, main_v113, main_v114, main_c_29, main_v115, main_v116, main_v117, main_v118, main_v119, main_v120, main_v121, main_v122, main_cst_30, main_v123, main_v124, main_v125, main_v126, main_v127, main_v128]
theorem L3_writes : (L3 : List (HloOp τ sig (Elt F))).Forall fun op => op.writes ⊆ (L3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; (repeat' apply And.intro) <;> exact List.mem_map_of_mem (by decide))
/-- A reference none of them writes keeps its contents through the stretch. -/
theorem L3_keep (V : Valuation τ sig (Elt F)) (r : Ref sig .tc) (h : r ∉ L3_W) :
    after L3 V (Proc.devRef .tc r) = V (Proc.devRef .tc r) :=
  StableHlo.after_of_writes_sub L3 V L3_writes h

/-! ## The stretches read -/

variable (V : Valuation τ sig (Elt F))

theorem c0_src : after c0 V (Proc.devRef .tc main_v3) = srcOf (V (Proc.devRef .tc main_arg1)) := by
  after_results; rfl
theorem c0_dst : after c0 V (Proc.devRef .tc main_v6) = dstOf (V (Proc.devRef .tc main_arg1)) := by
  after_results; rfl

set_option maxHeartbeats 40000000 in
theorem L1_out : after L1 V (Proc.devRef .tc main_v47)
    = relu128 (agg128 (Host.dotGeneral dot_S100000x128_S128x128_S100000x128_1_0_0_1_n_n none (V (Proc.devRef .tc main_arg0)) (V (Proc.devRef .tc main_arg2)))
        (V (Proc.devRef .tc main_v3)) (V (Proc.devRef .tc main_v6))
        (normOf (dinvOf (V (Proc.devRef .tc main_v6))) (V (Proc.devRef .tc main_v3)) (V (Proc.devRef .tc main_v6)))
        (V (Proc.devRef .tc main_arg3))) := by
  after_results_simp; rfl

set_option maxHeartbeats 40000000 in
theorem L2_out : after L2 V (Proc.devRef .tc main_v88)
    = relu128 (agg128 (Host.dotGeneral dot_S100000x128_S128x128_S100000x128_1_0_0_1_n_n none (V (Proc.devRef .tc main_v47)) (V (Proc.devRef .tc main_arg4)))
        (V (Proc.devRef .tc main_v3)) (V (Proc.devRef .tc main_v6))
        (normOf (dinvOf (V (Proc.devRef .tc main_v6))) (V (Proc.devRef .tc main_v3)) (V (Proc.devRef .tc main_v6)))
        (V (Proc.devRef .tc main_arg5))) := by
  after_results_simp; rfl

set_option maxHeartbeats 40000000 in
theorem L3_out : after L3 V (Proc.devRef .tc main_v128)
    = agg64 (Host.dotGeneral dot_S100000x128_S128x64_S100000x64_1_0_0_1_n_n none (V (Proc.devRef .tc main_v88)) (V (Proc.devRef .tc main_arg6)))
        (V (Proc.devRef .tc main_v3)) (V (Proc.devRef .tc main_v6))
        (normOf (dinvOf (V (Proc.devRef .tc main_v6))) (V (Proc.devRef .tc main_v3)) (V (Proc.devRef .tc main_v6)))
        (V (Proc.devRef .tc main_arg7)) := by
  after_results_simp; rfl

end Cert.ReferenceIdeal.Host

end
-- ==== Proof.RefValue.lean ====
/-
  The reference's result as one function of the argument arrays. The fold of its 172 operations is the four stretches in
  order; the index vectors the first stretch leaves and the argument arrays are written by no later stretch, so each
  layer's stretch finds them as launched, and the result buffer ends at the third layer's aggregation of the product of
  the rectified second layer with the last weight matrix.
-/
import proofs.«157540_j60894046322930_2_alg».proof.Proof.HostR
import Idealize.ShloMosaic.PureOps.Ideal

set_option maxRecDepth 16384

noncomputable section

namespace Cert.ReferenceIdeal.RefValue

open Cert.ReferenceIdeal Cert.ReferenceIdeal.Gen Cert.ReferenceIdeal.Host Cert.Gcn
open Idealize.ShloMosaic Idealize.ShloMosaic.TcCoe Idealize.SL.Sem Idealize.ShloMosaic.StableHlo

variable (m : (ℓ : Loc nD τ sig) → Buf (Elt Ideal) ℓ) (c : Dev nD)

/-- The buffers' contents at launch, and after each stretch. -/
abbrev Z0 : Valuation τ sig (Elt Ideal) := launchContents m c
abbrev Z1 : Valuation τ sig (Elt Ideal) := after c0 (Z0 m c)
abbrev Z2 : Valuation τ sig (Elt Ideal) := after L1 (Z1 m c)
abbrev Z3 : Valuation τ sig (Elt Ideal) := after L2 (Z2 m c)
abbrev Z4 : Valuation τ sig (Elt Ideal) := after L3 (Z3 m c)

/-- The fold of the whole program is the fold of the four stretches in order. -/
theorem fold_eq : after (Cert.ReferenceIdeal.RunP.ops (F := Ideal)) (launchContents m c) = Z4 m c := by
  rw [ops_split, after_append, after_append, after_append]

/-- The edge list as launched. -/
abbrev edges : (⟨S2x1600000, .i32⟩ : BufTy).Contents (Elt Ideal) := m ((c.tc : Thread nD τ).loc main_arg1)

theorem src1 : Z1 m c (Proc.devRef .tc main_v3) = srcOf (edges m c) := c0_src (Z0 m c)
theorem dst1 : Z1 m c (Proc.devRef .tc main_v6) = dstOf (edges m c) := c0_dst (Z0 m c)
theorem src2 : Z2 m c (Proc.devRef .tc main_v3) = srcOf (edges m c) := (L1_keep _ main_v3 (by decide)).trans (src1 m c)
theorem dst2 : Z2 m c (Proc.devRef .tc main_v6) = dstOf (edges m c) := (L1_keep _ main_v6 (by decide)).trans (dst1 m c)
theorem src3 : Z3 m c (Proc.devRef .tc main_v3) = srcOf (edges m c) := (L2_keep _ main_v3 (by decide)).trans (src2 m c)
theorem dst3 : Z3 m c (Proc.devRef .tc main_v6) = dstOf (edges m c) := (L2_keep _ main_v6 (by decide)).trans (dst2 m c)

/-- An argument array at the first layer's entry is the array as launched. -/
theorem arg1 (r : Ref sig .tc) (h : r ∉ c0_W) : Z1 m c (Proc.devRef .tc r) = Z0 m c (Proc.devRef .tc r) := c0_keep _ r h
theorem arg2 (r : Ref sig .tc) (h : r ∉ c0_W) (h1 : r ∉ L1_W) : Z2 m c (Proc.devRef .tc r) = Z0 m c (Proc.devRef .tc r) :=
  (L1_keep _ r h1).trans (arg1 m c r h)
theorem arg3 (r : Ref sig .tc) (h : r ∉ c0_W) (h1 : r ∉ L1_W) (h2 : r ∉ L2_W) : Z3 m c (Proc.devRef .tc r) = Z0 m c (Proc.devRef .tc r) :=
  (L2_keep _ r h2).trans (arg2 m c r h h1)

/-- The edge weights, as every layer recomputes them. -/
abbrev weights : (⟨S1700000, .f32⟩ : BufTy).Contents (Elt Ideal) :=
  normOf (dinvOf (dstOf (edges m c))) (srcOf (edges m c)) (dstOf (edges m c))

/-- The rectified first layer. -/
abbrev layer1 : (⟨S100000x128, .f32⟩ : BufTy).Contents (Elt Ideal) :=
  relu128 (agg128 (Host.dotGeneral (F := Ideal) (φ₁ := .f32) (φ₂ := .f32) dot_S100000x128_S128x128_S100000x128_1_0_0_1_n_n none (m ((c.tc : Thread nD τ).loc main_arg0)) (m ((c.tc : Thread nD τ).loc main_arg2)))
    (srcOf (edges m c)) (dstOf (edges m c)) (weights m c) (m ((c.tc : Thread nD τ).loc main_arg3)))

theorem out1 : Z2 m c (Proc.devRef .tc main_v47) = layer1 m c := by
  refine (L1_out (Z1 m c)).trans ?_
  rw [src1 m c, dst1 m c, arg1 m c main_arg0 (by decide), arg1 m c main_arg2 (by decide), arg1 m c main_arg3 (by decide)]

/-- The rectified second layer. -/
abbrev layer2 : (⟨S100000x128, .f32⟩ : BufTy).Contents (Elt Ideal) :=
  relu128 (agg128 (Host.dotGeneral (F := Ideal) (φ₁ := .f32) (φ₂ := .f32) dot_S100000x128_S128x128_S100000x128_1_0_0_1_n_n none (layer1 m c) (m ((c.tc : Thread nD τ).loc main_arg4)))
    (srcOf (edges m c)) (dstOf (edges m c)) (weights m c) (m ((c.tc : Thread nD τ).loc main_arg5)))

theorem out2 : Z3 m c (Proc.devRef .tc main_v88) = layer2 m c := by
  refine (L2_out (Z2 m c)).trans ?_
  rw [out1 m c, src2 m c, dst2 m c, arg2 m c main_arg4 (by decide) (by decide), arg2 m c main_arg5 (by decide) (by decide)]

/-- The reference's result. -/
abbrev result : (⟨S100000x64, .f32⟩ : BufTy).Contents (Elt Ideal) :=
  agg64 (Host.dotGeneral (F := Ideal) (φ₁ := .f32) (φ₂ := .f32) dot_S100000x128_S128x64_S100000x64_1_0_0_1_n_n none (layer2 m c) (m ((c.tc : Thread nD τ).loc main_arg6)))
    (srcOf (edges m c)) (dstOf (edges m c)) (weights m c) (m ((c.tc : Thread nD τ).loc main_arg7))

theorem out3 : Z4 m c (Proc.devRef .tc main_v128) = result m c := by
  refine (L3_out (Z3 m c)).trans ?_
  rw [out2 m c, src3 m c, dst3 m c, arg3 m c main_arg6 (by decide) (by decide) (by decide), arg3 m c main_arg7 (by decide) (by decide) (by decide)]

/-- The program's fold at the result buffer is that function of the arguments. -/
theorem fold_result : after (Cert.ReferenceIdeal.RunP.ops (F := Ideal)) (launchContents m c) (Proc.devRef .tc main_v128) = result m c := by
  rw [fold_eq m c]; exact out3 m c

end Cert.ReferenceIdeal.RefValue

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.Bridge.lean ====
/-
  The host's matrix products against the regions'. Entry (p, q) of the host's product is the sum over j of
  lhs (p, j) · rhs (j, q), which is what a region's output array holds; a rectified left factor is rectified entry by
  entry in both. For the last layer the region multiplies by the weight matrix widened with 64 zero columns and the first
  64 columns of the product are kept: column q < 64 of the widened matrix is column q of the weight matrix, so those
  columns are the product with the weight matrix itself. Only the sums' terms are compared; no sum is rearranged.
-/
import proofs.«157540_j60894046322930_2_alg».proof.Proof.Region0
import proofs.«157540_j60894046322930_2_alg».proof.Proof.Region1
import proofs.«157540_j60894046322930_2_alg».proof.Proof.Region2
import proofs.«157540_j60894046322930_2_alg».proof.Proof.Spec
import proofs.«157540_j60894046322930_2_alg».proof.Proof.LibMatmul
import proofs.«157540_j60894046322930_2_alg».proof.Proof.LibPad
import proofs.«157540_j60894046322930_2_alg».proof.ReferenceIdeal
import proofs.«157540_j60894046322930_2_alg».proof.Proof.Gen.ReferenceIdeal
import Idealize.ShloMosaic.Lib.Pipeline.Value
import Idealize.ShloMosaic.Lib.ValueIdx

set_option maxRecDepth 16384

noncomputable section

open scoped BigOperators

namespace Cert.Gcn.Bridge

open Cert.Gcn Idealize.ShloMosaic Idealize.ShloMosaic.ValueIdx

/-- The rectified array at an index: the larger of the entry and zero. -/
theorem relu128_apply (X : FVec Ideal Cert.KernelIdeal.S100000x128 .f32) (i : Cert.KernelIdeal.S100000x128.Idx) :
    relu128 (F := Ideal) X i = FloatOps.maximumf (F := Ideal) (X i) (Scalar.ofBits (F := Ideal) .f32 0x00000000#32) := by
  show FloatOps.maximumf (F := Ideal) (X i) (broadcastInDim Cert.KernelIdeal.S100000x128 ![] _ (constant (F := Ideal) Cert.KernelIdeal.S_ .f32 0x00000000#32) i) = _
  rw [broadcastInDim_apply _ _ _ i ix0 (fun a => a.elim0)]
  rfl

/-- The host's product of two whole arrays is the first region's output. -/
theorem dot_eq_prod0 (X : FVec Ideal Cert.KernelIdeal.S100000x128 .f32) (Wt : FVec Ideal Cert.KernelIdeal.S128x128 .f32) :
    Host.dotGeneral Cert.ReferenceIdeal.dot_S100000x128_S128x128_S100000x128_1_0_0_1_n_n none X Wt = Cert.KernelIdeal.Region0.prod X Wt := by
  funext i
  obtain ⟨p, q, rfl⟩ : ∃ (p : Fin 100000) (q : Fin 128), i = ix2 p q := ⟨i 0, i 1, eq_ix2 i⟩
  exact dotGeneral_ix2 Cert.ReferenceIdeal.dot_S100000x128_S128x128_S100000x128_1_0_0_1_n_n rfl rfl rfl rfl rfl rfl none _ X Wt p q

/-- The host's product with a rectified left factor is the second region's output. -/
theorem dot_relu_eq_prod1 (X : FVec Ideal Cert.KernelIdeal.S100000x128 .f32) (Wt : FVec Ideal Cert.KernelIdeal.S128x128 .f32) :
    Host.dotGeneral (φ₁ := .f32) Cert.ReferenceIdeal.dot_S100000x128_S128x128_S100000x128_1_0_0_1_n_n none (relu128 (F := Ideal) X) Wt = Cert.KernelIdeal.Region1.prod X Wt := by
  funext i
  obtain ⟨p, q, rfl⟩ : ∃ (p : Fin 100000) (q : Fin 128), i = ix2 p q := ⟨i 0, i 1, eq_ix2 i⟩
  refine (dotGeneral_ix2 Cert.ReferenceIdeal.dot_S100000x128_S128x128_S100000x128_1_0_0_1_n_n rfl rfl rfl rfl rfl rfl none _ (φ₁ := .f32) (relu128 (F := Ideal) X) Wt p q).trans ?_
  refine Finset.sum_congr rfl fun j _ => ?_
  rw [relu128_apply]

/-- The host's product with the 64-column weight matrix is the first 64 columns of the third region's output, whose right
    factor is that matrix widened with zero columns. -/
theorem dot_relu_eq_slice_prod2 (X : FVec Ideal Cert.KernelIdeal.S100000x128 .f32) (W6 : FVec Ideal Cert.KernelIdeal.S128x64 .f32)
    (v : FVec Ideal Cert.KernelIdeal.S_ .f32) :
    Host.dotGeneral (φ₁ := .f32) Cert.ReferenceIdeal.dot_S100000x128_S128x64_S100000x64_1_0_0_1_n_n none (relu128 (F := Ideal) X) W6
      = extractStridedSlice Cert.KernelIdeal.S100000x64 ![0, 0]
          (Cert.KernelIdeal.Region2.prod X (pad Cert.KernelIdeal.S128x128 ![0, 0] ![0, 64] ![0, 0] W6 v
            Cert.KernelIdeal.Facts₀.pads_S128x64_S128x128_000_0640 Cert.KernelIdeal.Facts₀.h_S_))
          Cert.KernelIdeal.Facts₀.slices_S100000x128_S100000x64_0_0 := by
  funext i
  obtain ⟨p, q, rfl⟩ : ∃ (p : Fin 100000) (q : Fin 64), i = ix2 p q := ⟨i 0, i 1, eq_ix2 i⟩
  have hq : q.val < 128 := by have := q.isLt; omega
  refine (dotGeneral_ix2 Cert.ReferenceIdeal.dot_S100000x128_S128x64_S100000x64_1_0_0_1_n_n rfl rfl rfl rfl rfl rfl none _ (φ₁ := .f32) (relu128 (F := Ideal) X) W6 p q).trans ?_
  refine Eq.symm ((extractStridedSlice_apply _ _ _ (ix2 p q) (ix2 p (⟨q.val, hq⟩ : Fin 128)) (fun a => by
    match a with
    | ⟨0, _⟩ => show p.val = 0 + p.val; omega
    | ⟨1, _⟩ => show q.val = 0 + q.val; omega)).trans ?_)
  show (∑ j : Fin 128, FloatOps.maximumf (F := Ideal) (X (ix2 p j)) (Scalar.ofBits (F := Ideal) .f32 0x00000000#32)
      * pad Cert.KernelIdeal.S128x128 ![0, 0] ![0, 64] ![0, 0] W6 v _ _ (ix2 j (⟨q.val, hq⟩ : Fin 128))) = _
  refine Finset.sum_congr rfl fun j _ => ?_
  rw [relu128_apply, LibPad.pad_apply_of_mem _ _ _ W6 v _ _ (ix2 j (⟨q.val, hq⟩ : Fin 128)) (ix2 j q) (fun a => by
    match a with
    | ⟨0, _⟩ => show j.val = 0 + j.val * (0 + 1); omega
    | ⟨1, _⟩ => show q.val = 0 + q.val * (0 + 1); omega)]

end Cert.Gcn.Bridge

end
-- ==== Proof.lean ====
/-
  A three-layer graph convolution: each layer multiplies the node matrix by a weight matrix, gathers the product's rows
  at the edges' sources, scales them by the edge weights d(src)^(-1/2) · d(dst)^(-1/2), adds them up at the edges'
  destinations and adds a bias; the first two layers' outputs are rectified before the next product. The kernel program
  computes the three products in tiled matrix-unit regions (5000 rows at a grid point), rectifies inside the second and
  third regions, computes the edge weights once, and widens the last 128 x 64 weight matrix to 128 columns with zeros,
  keeping the first 64 columns of the product. The reference computes the products on the host, rectifies on the host,
  and recomputes the edge weights in every layer.
  On the extended reals the two are one function of the arguments: a region's output array is the host's product of the
  arrays it finds (entry (p, q) is the same sum over j of lhs (p, j) · rhs (j, q), the left factor rectified entry by
  entry where the layer rectifies); the widened matrix's first 64 columns are the weight matrix's, so the kept columns
  are the host's product with the weight matrix; the recomputed edge weights are the same term each time; and everything
  else is the same chain of host operations applied to equal arrays. No sum is reordered and no law that needs finite
  entries is used, so the precondition is not opened.
-/
import proofs.«157540_j60894046322930_2_alg».proof.Defs
import proofs.«157540_j60894046322930_2_alg».proof.Proof.Gen.Kernel
import proofs.«157540_j60894046322930_2_alg».proof.Proof.Gen.Kernel.Frame
import proofs.«157540_j60894046322930_2_alg».proof.Proof.Gen.KernelIdeal
import proofs.«157540_j60894046322930_2_alg».proof.Proof.Gen.KernelIdeal.Frame
import proofs.«157540_j60894046322930_2_alg».proof.Proof.Gen.ReferenceIdeal
import proofs.«157540_j60894046322930_2_alg».proof.Proof.Gen.Pre_finite_inputs
import proofs.«157540_j60894046322930_2_alg».proof.Proof.KernelRun
import proofs.«157540_j60894046322930_2_alg».proof.Proof.KernelValue
import proofs.«157540_j60894046322930_2_alg».proof.Proof.RefRun
import proofs.«157540_j60894046322930_2_alg».proof.Proof.RefValue
import proofs.«157540_j60894046322930_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.Gcn

/-- The two programs' results are one function of arguments that agree: the host's three products are the three regions'
    output arrays (the last one after the 64 kept columns), and the rest is the same chain on both sides. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.result m' c = Cert.KernelIdeal.Value.result m c := by
  unfold Cert.ReferenceIdeal.RefValue.result Cert.ReferenceIdeal.RefValue.layer2 Cert.ReferenceIdeal.RefValue.layer1
    Cert.ReferenceIdeal.RefValue.weights Cert.ReferenceIdeal.RefValue.edges
    Cert.KernelIdeal.Value.result Cert.KernelIdeal.Value.layer2 Cert.KernelIdeal.Value.layer1 Cert.KernelIdeal.Value.weights
    Cert.KernelIdeal.Value.edges Cert.KernelIdeal.Value.wide3
  rw [h0, h1, h2, h3, h4, h5, h6, h7]
  rw [Bridge.dot_relu_eq_slice_prod2 _ _ (sitofp (F := Ideal) .f32 (constantI Cert.KernelIdeal.S_ 32 0#32)),
    Bridge.dot_relu_eq_prod1, Bridge.dot_eq_prod0]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing: the idealization is the program's own text read on the extended reals. -/
theorem preserves : Cert.preserves_Kernel_KernelIdeal := trivial

/-- Both programs run; the kernel's result buffer ends at its function of the arguments, the reference's at its own, and
    the two are equal on arguments that agree. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono
      (fun _ h c => ⟨(h c).1.trans (Cert.KernelIdeal.Value.out3 m ρ c), (h c).2⟩) (Cert.KernelIdeal.Result.run_result m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.fold_result m' c]
    obtain ⟨h0, h1, h2, h3, h4, h5, h6, h7⟩ := hagree c
    exact results_eq m m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
